-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096 .f32) (main_arg5 : FVec F S4096 .f32) (main_arg6 : FVec F S4096x1024 .f32) (main_arg7 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S1024x4096 .f32) (main_arg2 : FVec F S4096 .f32) (main_arg3 : FVec F S4096 .f32) (main_arg4 : FVec F S4096 .f32) (main_arg5 : FVec F S4096 .f32) (main_arg6 : FVec F S4096x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 26
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S8192x1024, .f32⟩
  | .hbm, ⟨9, _⟩ => ⟨S1024x4096, .bf16⟩
  | .hbm, ⟨10, _⟩ => ⟨S4096x1024, .bf16⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x1024, .f32⟩
  | .hbm, ⟨24, _⟩ => ⟨S8192x1024, .f32⟩
  | .hbm, ⟨25, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x2048x1024_S8192x1024 : S4x2048x1024.ShapeCasts S8192x1024
  bitsLt_bf16_f32 : FTy.bits .bf16 < FTy.bits .f32
  bcast_S_S4096 : S_.BroadcastsInDim S4096 (![] : Fin 0 → Fin S4096.rank)
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S8192x1024_S4x2048x1024 : S8192x1024.ShapeCasts S4x2048x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x2048x4096 : Shape := ⟨3, ![4, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | .hbm, ⟨30, _⟩ => ⟨S_, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S_, .f32⟩
  | .hbm, ⟨35, _⟩ => ⟨S4x2048x4096, .f32⟩
  | .hbm, ⟨36, _⟩ => ⟨S4x2048x4096, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMergeRows.lean ====
/-
  General lemmas: small layout operations read at an index written with `ix1` / `ix2` / `ix3`, over variable extents.

  * the two leading axes of an `[a, b, c]` array merged into one axis of `r = a · b` rows, and an `[r, c]` array split
    back into `[a, b, c]`: row `p · b + q` of the merged array is row `(p, q)` of the split one (the row-major position
    is kept), so neither direction needs a quotient or a remainder;
  * a column `[a, 1]` re-laid as a row `[1, a]`;
  * a one-entry array `[1, 1]` spread over `[a, b]`, and a rank-zero array cast to `[1, 1]`;
  * a rank-zero array spread over any shape by a `broadcast_in_dim` with no dimensions.
  Nothing here mentions a program: the extents are variables and the shape evidence is a hypothesis.
-/
import Idealize.ShloMosaic.Lib.Pipeline.Value
import Idealize.ShloMosaic.Lib.ValueIdx
import Idealize.ShloMosaic.Lib.ValueLayout

namespace Cert.LibMergeRows

open Idealize.ShloMosaic Idealize.ShloMosaic.ValueIdx

variable {α : Type}

/-- Row `(p, q)` of an `[a, b, ·]` array sits at row `p · b + q` of the array with the two leading axes merged. -/
def mergeIdx {a b r : ℕ} (hr : r = a * b) (p : Fin a) (q : Fin b) : Fin r :=
  ⟨p.val * b + q.val, by
    subst hr
    exact Nat.lt_of_lt_of_le (Nat.add_lt_add_left q.isLt _)
      (by rw [← Nat.succ_mul]; exact Nat.mul_le_mul_right _ p.isLt)⟩

theorem mergeIdx_val {a b r : ℕ} (hr : r = a * b) (p : Fin a) (q : Fin b) : (mergeIdx hr p q).val = p.val * b + q.val := rfl

/-- An `[a, b, c]` array with its two leading axes merged reads, at row `p · b + q`, the operand's row `(p, q)`. -/
theorem shapeCast_abc_rc_apply {a b c r : ℕ} (x : (⟨3, ![a, b, c]⟩ : Shape).Idx → α)
    (h : (⟨3, ![a, b, c]⟩ : Shape).ShapeCasts ⟨2, ![r, c]⟩) (hr : r = a * b) (p : Fin a) (q : Fin b) (k : Fin c) :
    shapeCast ⟨2, ![r, c]⟩ x h (ix2 (mergeIdx hr p q) k) = x (ix3 p q k) :=
  shapeCast_apply x h _ _ (by
    rw [Shape.rowMajor_val_three, Shape.rowMajor_val_two]
    rfl)

/-- An `[r, c]` array with its leading axis split into `a` groups of `b` rows reads, at `(p, q)`, the operand's row
    `p · b + q`. -/
theorem shapeCast_rc_abc_apply {a b c r : ℕ} (y : (⟨2, ![r, c]⟩ : Shape).Idx → α)
    (h : (⟨2, ![r, c]⟩ : Shape).ShapeCasts ⟨3, ![a, b, c]⟩) (hr : r = a * b) (p : Fin a) (q : Fin b) (k : Fin c) :
    shapeCast ⟨3, ![a, b, c]⟩ y h (ix3 p q k) = y (ix2 (mergeIdx hr p q) k) :=
  shapeCast_apply y h _ _ (by
    rw [Shape.rowMajor_val_three, Shape.rowMajor_val_two]
    rfl)

/-- A column `[a, 1]` re-laid as a row `[1, a]` reads, at `(u, p)`, the column's entry `p`. -/
theorem shapeCast_a1_1a_apply {a : ℕ} (x : (⟨2, ![a, 1]⟩ : Shape).Idx → α)
    (h : (⟨2, ![a, 1]⟩ : Shape).ShapeCasts ⟨2, ![1, a]⟩) (u : Fin 1) (p : Fin a) :
    shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.mul_one, Nat.add_zero, Nat.zero_mul, Nat.zero_add])

/-- A column `[a, 1]` flattened to a vector `[a]` reads, at `p`, the column's entry `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A one-entry array `[1, 1]` spread over `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A rank-zero array cast to `[1, 1]` reads its one entry. -/
theorem shapeCast_0_11_apply (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  congrArg x (eq_ix0 _)

/-- A rank-zero array spread over any shape reads its one entry everywhere. -/
theorem broadcastInDim_0_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

end Cert.LibMergeRows
-- ==== Proof.PhaseFfn.lean ====
/-
  A feed-forward block whose hidden layer passes through a phase activation, over the extended reals.

  For a matrix `x` [a, k], weights `w1` [k, n] and `w2` [n, d], bias rows `b1` [1, n] and `b2` [1, d], a phase row
  `θ` [1, n] and a coefficient row `c` [1, n], with two scalars `κ` and `z`:
    hidden (p, f) = (the sum over e of x (p, e) · w1 (e, f)) + b1 (0, f),
    act (p, f)    = max (hidden (p, f) + c (0, f) · sin (θ (0, f) + hidden (p, f) · κ)) z,
    out (p, j)    = (the sum over f of act (p, f) · w2 (f, j)) + b2 (0, j).
  * `phaseEntry`, `phase`: the activation; `ffn`: the block as an [a, d] array;
  * `ffn_rows`: entry (p, j) of the block reads only row p of `x`, so a block of rows of the result is the block
    of that block of rows;
  * `vector_phase_eq`: the activation spelt with whole-array operations (rows laid along the rows, scalars splat) is
    `phase`;
  * `coeff`: the coefficient vector κ · (cos θ · wr + sin θ · wi) · wi, and `coeff_mul`: multiplying the phase factor,
    the weight, the sine and κ in the other grouping, (q · (wi · s)) · κ with q = cos θ · wr + sin θ · wi, gives
    coeff · s — multiplication of extended reals is commutative and associative, so no finiteness is needed;
  * `ffn3`: the block applied to an [A, B, k] array with its two leading axes merged into rows and vector
    parameters laid as rows, as an [A, B, d] array; `ffn3_apply` reads it at (p, q, j) as the plain formula above.
  Nothing here mentions a program: the extents are variables and the shape evidence is a hypothesis.
-/
import proofs.«162884_j39960375722236_2_alg».proof.Proof.LibAffine
import proofs.«162884_j39960375722236_2_alg».proof.Proof.LibMergeRows
import Idealize.ShloMosaic.Lib.ValueLayout
import Idealize.ShloMosaic.Lib.ValueIdx
import Idealize.ShloMosaic.Lib.Pipeline.Value
import Idealize.ShloMosaic.PureOps.Ideal.Laws

noncomputable section

namespace Cert.PhaseFfn

open Idealize.ShloMosaic Idealize.ShloMosaic.ValueIdx Cert.LibAffine Cert.LibMergeRows

variable {a k n d : ℕ}

/-- Entry (p, f) of the activation: `max (h + c_f · sin (θ_f + h · κ)) z` with `h` the hidden entry (p, f). -/
def phaseEntry (κ z : Ideal .f32) (h : FVec Ideal ⟨2, ![a, n]⟩ .f32) (θ c : FVec Ideal ⟨2, ![1, n]⟩ .f32)
    (p : Fin a) (f : Fin n) : Ideal .f32 :=
  max (h (ix2 p f) + c (ix2 (0 : Fin 1) f) * Ideal.sin (θ (ix2 (0 : Fin 1) f) + h (ix2 p f) * κ)) z

/-- The activation as an [a, n] array. -/
def phase (κ z : Ideal .f32) (h : FVec Ideal ⟨2, ![a, n]⟩ .f32) (θ c : FVec Ideal ⟨2, ![1, n]⟩ .f32) :
    FVec Ideal ⟨2, ![a, n]⟩ .f32 :=
  fun i => phaseEntry κ z h θ c (i 0) (i 1)

theorem phase_ix2 (κ z : Ideal .f32) (h : FVec Ideal ⟨2, ![a, n]⟩ .f32) (θ c : FVec Ideal ⟨2, ![1, n]⟩ .f32)
    (p : Fin a) (f : Fin n) : phase κ z h θ c (ix2 p f) = phaseEntry κ z h θ c p f := rfl

/-- The block: a dense layer, the phase activation, a second dense layer. -/
def ffn (κ z : Ideal .f32) (x : FVec Ideal ⟨2, ![a, k]⟩ .f32) (w1 : FVec Ideal ⟨2, ![k, n]⟩ .f32)
    (b1 θ c : FVec Ideal ⟨2, ![1, n]⟩ .f32) (w2 : FVec Ideal ⟨2, ![n, d]⟩ .f32) (b2 : FVec Ideal ⟨2, ![1, d]⟩ .f32) :
    FVec Ideal ⟨2, ![a, d]⟩ .f32 :=
  affine (phase κ z (affine x w1 b1) θ c) w2 b2

/-- Entry (p, j) of the block reads only row p of the input matrix. -/
theorem ffn_rows {a' : ℕ} (κ z : Ideal .f32) (X : FVec Ideal ⟨2, ![a, k]⟩ .f32) (x : FVec Ideal ⟨2, ![a', k]⟩ .f32)
    (w1 : FVec Ideal ⟨2, ![k, n]⟩ .f32) (b1 θ c : FVec Ideal ⟨2, ![1, n]⟩ .f32) (w2 : FVec Ideal ⟨2, ![n, d]⟩ .f32)
    (b2 : FVec Ideal ⟨2, ![1, d]⟩ .f32) (p : Fin a') (p' : Fin a) (j : Fin d)
    (hx : ∀ e : Fin k, x (ix2 p e) = X (ix2 p' e)) :
    ffn κ z x w1 b1 θ c w2 b2 (ix2 p j) = ffn κ z X w1 b1 θ c w2 b2 (ix2 p' j) := by
  unfold ffn
  rw [affine_ix2, affine_ix2]
  refine affineAt_congr _ _ _ _ _ _ p p' j (fun f => ?_) (fun _ => rfl) rfl
  rw [phase_ix2, phase_ix2]
  unfold phaseEntry
  rw [affine_ix2, affine_ix2, affineAt_congr X w1 b1 x w1 b1 p p' f hx (fun _ => rfl) rfl]

/-- The activation spelt with whole-array operations — the phase and coefficient rows laid along the rows, the two
    scalars splat — is `phase`. -/
theorem vector_phase_eq (hb : (⟨2, ![1, n]⟩ : Shape).Broadcasts ⟨2, ![a, n]⟩) (κ z : Ideal .f32)
    (h : FVec Ideal ⟨2, ![a, n]⟩ .f32) (θ c : FVec Ideal ⟨2, ![1, n]⟩ .f32) :
    maximumf (addf h (mulf (broadcastTo ⟨2, ![a, n]⟩ c hb)
        (sin (addf (broadcastTo ⟨2, ![a, n]⟩ θ hb) (mulf h (broadcast ⟨2, ![a, n]⟩ κ))))))
      (broadcast ⟨2, ![a, n]⟩ z) = phase κ z h θ c := by
  funext i
  obtain ⟨p, f, rfl⟩ : ∃ (p : Fin a) (f : Fin n), i = ix2 p f := ⟨i 0, i 1, eq_ix2 i⟩
  show max (h (ix2 p f) + broadcastTo ⟨2, ![a, n]⟩ c hb (ix2 p f)
      * Ideal.sin (broadcastTo ⟨2, ![a, n]⟩ θ hb (ix2 p f) + h (ix2 p f) * κ)) z = _
  rw [broadcastTo_1b_ab_apply, broadcastTo_1b_ab_apply]
  rfl

/-- The coefficient vector: κ · (cos θ · wr + sin θ · wi) · wi, entry by entry. -/
def coeff (κ : Ideal .f32) (θ wr wi : FVec Ideal ⟨1, ![n]⟩ .f32) : FVec Ideal ⟨1, ![n]⟩ .f32 :=
  fun f => κ * (Ideal.cos (θ f) * wr f + Ideal.sin (θ f) * wi f) * wi f

/-- The same product in the other grouping: (q · (w · s)) · κ = ((κ · q) · w) · s on the extended reals. -/
theorem regroup (κ q w s : EReal) : q * (w * s) * κ = κ * q * w * s := by
  rw [mul_comm (q * (w * s)) κ, ← mul_assoc, ← mul_assoc]

variable {A B R : ℕ}

/-- The block on an [A, B, k] array: the two leading axes merged into R = A · B rows, the bias, phase and
    coefficient vectors laid as rows, the result's rows split back into [A, B]. -/
def ffn3 (κ z : Ideal .f32) (hx : (⟨3, ![A, B, k]⟩ : Shape).ShapeCasts ⟨2, ![R, k]⟩)
    (hn : (⟨1, ![n]⟩ : Shape).ShapeCasts ⟨2, ![1, n]⟩) (hd : (⟨1, ![d]⟩ : Shape).ShapeCasts ⟨2, ![1, d]⟩) (hr : R = A * B)
    (x : FVec Ideal ⟨3, ![A, B, k]⟩ .f32) (w1 : FVec Ideal ⟨2, ![k, n]⟩ .f32) (b1 θ c : FVec Ideal ⟨1, ![n]⟩ .f32)
    (w2 : FVec Ideal ⟨2, ![n, d]⟩ .f32) (b2 : FVec Ideal ⟨1, ![d]⟩ .f32) : FVec Ideal ⟨3, ![A, B, d]⟩ .f32 :=
  fun i => ffn κ z (shapeCast ⟨2, ![R, k]⟩ x hx) w1 (shapeCast ⟨2, ![1, n]⟩ b1 hn) (shapeCast ⟨2, ![1, n]⟩ θ hn)
    (shapeCast ⟨2, ![1, n]⟩ c hn) w2 (shapeCast ⟨2, ![1, d]⟩ b2 hd) (ix2 (mergeIdx hr (i 0) (i 1)) (i 2))

/-- The hidden entry (p, q, f) of the block on an [A, B, k] array. -/
def hidden3 (x : FVec Ideal ⟨3, ![A, B, k]⟩ .f32) (w1 : FVec Ideal ⟨2, ![k, n]⟩ .f32) (b1 : FVec Ideal ⟨1, ![n]⟩ .f32)
    (p : Fin A) (q : Fin B) (f : Fin n) : Ideal .f32 :=
  (∑ e : Fin k, x (ix3 p q e) * w1 (ix2 e f)) + b1 (ix1 f)

/-- The block on an [A, B, k] array read at (p, q, j): the plain formula. -/
theorem ffn3_apply (κ z : Ideal .f32) (hx : (⟨3, ![A, B, k]⟩ : Shape).ShapeCasts ⟨2, ![R, k]⟩)
    (hn : (⟨1, ![n]⟩ : Shape).ShapeCasts ⟨2, ![1, n]⟩) (hd : (⟨1, ![d]⟩ : Shape).ShapeCasts ⟨2, ![1, d]⟩) (hr : R = A * B)
    (x : FVec Ideal ⟨3, ![A, B, k]⟩ .f32) (w1 : FVec Ideal ⟨2, ![k, n]⟩ .f32) (b1 θ c : FVec Ideal ⟨1, ![n]⟩ .f32)
    (w2 : FVec Ideal ⟨2, ![n, d]⟩ .f32) (b2 : FVec Ideal ⟨1, ![d]⟩ .f32) (p : Fin A) (q : Fin B) (j : Fin d) :
    ffn3 κ z hx hn hd hr x w1 b1 θ c w2 b2 (ix3 p q j)
      = (∑ f : Fin n, max (hidden3 x w1 b1 p q f + c (ix1 f) * Ideal.sin (θ (ix1 f) + hidden3 x w1 b1 p q f * κ)) z
          * w2 (ix2 f j)) + b2 (ix1 j) := by
  show ffn κ z _ w1 _ _ _ w2 _ (ix2 (mergeIdx hr p q) j) = _
  unfold ffn
  rw [affine_ix2]
  unfold affineAt
  rw [shapeCast_a_1a_apply]
  refine congrArg (· + b2 (ix1 j)) (Finset.sum_congr rfl fun f _ => ?_)
  rw [phase_ix2]
  unfold phaseEntry
  rw [affine_ix2]
  unfold affineAt hidden3
  rw [shapeCast_a_1a_apply, shapeCast_a_1a_apply, shapeCast_a_1a_apply]
  simp only [shapeCast_abc_rc_apply]

end Cert.PhaseFfn

end
-- ==== Proof.Words.lean ====
/-
  The two float words that both programs use: 0x3DCCCCCD, the single-precision word nearest one tenth, read at the
  extended reals as its exact binary value (both programs multiply by the same word, so its value never matters),
  and the zero word, the floor of the rectifier.
-/
import Idealize.ShloMosaic.PureOps.Ideal

noncomputable section

namespace Cert.Words

open Idealize.ShloMosaic

/-- The factor on the hidden entry inside the sine, and on the coefficient. -/
abbrev tenth : Ideal .f32 := Ideal.ofBits .f32 0x3DCCCCCD#32

/-- The floor of the rectifier. -/
abbrev zero : Ideal .f32 := Ideal.ofBits .f32 0x00000000#32

end Cert.Words

end
-- ==== Proof.KernelBlock.lean ====
/-
  What one grid point of the kernel computes: the body's one store writes, from the point's block of 256 input rows
  and the whole weights and rows, the feed-forward block `PhaseFfn.ffn` of them — a matrix product into a zero
  accumulator plus the first bias row, the phase activation with the phase and coefficient rows, a second product
  plus the second bias row. The narrowing of the product operands to half precision is the identity on the
  extended reals.
-/
import proofs.«162884_j39960375722236_2_alg».proof.Proof.Gen.KernelIdeal.Skeleton
import proofs.«162884_j39960375722236_2_alg».proof.Proof.PhaseFfn
import proofs.«162884_j39960375722236_2_alg».proof.Proof.Words

noncomputable section

namespace Cert.KernelIdeal.Block

open Idealize.ShloMosaic Idealize.ShloMosaic.ValueIdx Cert.KernelIdeal Cert.KernelIdeal.Gen Cert.LibAffine Cert.PhaseFfn Cert.Words

/-! The two products' dimension records contract the left operand's columns against the right operand's rows. -/

theorem d1_l0 (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl
theorem d1_l1 (i : S256x4096.Idx) (q : dot_S256x1024_S1024x4096_S256x4096_1_0_0_1_n_n.contr.Idx) : (dot_S256x1024_S1024x4096_S256x4096_1_0_0_1_n_n.lhsIdx i q 1).val = (q ⟨0, by decide⟩).val :=
  dot_S256x1024_S1024x4096_S256x4096_1_0_0_1_n_n.lhsIdx_val_of_single rfl i q
theorem d1_r0 (i : S256x4096.Idx) (q : dot_S256x1024_S1024x4096_S256x4096_1_0_0_1_n_n.contr.Idx) : (dot_S256x1024_S1024x4096_S256x4096_1_0_0_1_n_n.rhsIdx i q 0).val = (q ⟨0, by decide⟩).val :=
  dot_S256x1024_S1024x4096_S256x4096_1_0_0_1_n_n.rhsIdx_val_of_single rfl i q
theorem d1_r1 (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

theorem d2_l0 (i : S256x1024.Idx) (q : dot_S256x4096_S4096x1024_S256x1024_1_0_0_1_n_n.contr.Idx) : (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl
theorem d2_l1 (i : S256x1024.Idx) (q : dot_S256x4096_S4096x1024_S256x1024_1_0_0_1_n_n.contr.Idx) : (dot_S256x4096_S4096x1024_S256x1024_1_0_0_1_n_n.lhsIdx i q 1).val = (q ⟨0, by decide⟩).val :=
  dot_S256x4096_S4096x1024_S256x1024_1_0_0_1_n_n.lhsIdx_val_of_single rfl i q
theorem d2_r0 (i : S256x1024.Idx) (q : dot_S256x4096_S4096x1024_S256x1024_1_0_0_1_n_n.contr.Idx) : (dot_S256x4096_S4096x1024_S256x1024_1_0_0_1_n_n.rhsIdx i q 0).val = (q ⟨0, by decide⟩).val :=
  dot_S256x4096_S4096x1024_S256x1024_1_0_0_1_n_n.rhsIdx_val_of_single rfl i q
theorem d2_r1 (i : S256x1024.Idx) (q : dot_S256x4096_S4096x1024_S256x1024_1_0_0_1_n_n.contr.Idx) : (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl

/-- The body's store is the feed-forward block of the loaded windows. -/
theorem pay_eq (x0 : Vec Ideal S256x1024 .f32) (x1 : Vec Ideal S1024x4096 .bf16) (x2 x3 x4 : Vec Ideal S1x4096 .f32)
    (x5 : Vec Ideal S4096x1024 .bf16) (x6 : Vec Ideal S1x1024 .f32) :
    k0_pay1 (F := Ideal) x0 x1 x2 x3 x4 x5 x6
      = ffn tenth zero (fun i => x0 i) (fun i => x1 i) x2 x3 x4 (fun i => x5 i) x6 := by
  unfold k0_pay1
  simp only [shapeCast_self]
  rw [coreAffine_eq (φ := .bf16) dot_S256x1024_S1024x4096_S256x4096_1_0_0_1_n_n rfl rfl d1_l0 d1_l1 d1_r0 d1_r1]
  rw [vector_phase_eq]
  rw [coreAffine_eq (φ := .bf16) dot_S256x4096_S4096x1024_S256x1024_1_0_0_1_n_n rfl rfl d2_l0 d2_l1 d2_r0 d2_r1]
  rfl

end Cert.KernelIdeal.Block

end
-- ==== Proof.Target.lean ====
/-
  The function both programs compute, over the literal extents: for x [4, 2048, 1024], w1 [1024, 4096], vectors
  b1, θ, wr, wi of length 4096, w2 [4096, 1024] and b2 of length 1024, entry (p, q, j) of the result is
    (the sum over f of max (h f + c f · sin (θ f + h f · κ)) 0 · w2 (f, j)) + b2 j,
  where h f = (the sum over e of x (p, q, e) · w1 (e, f)) + b1 f is the hidden entry, κ the one-tenth word and
  c f = κ · (cos (θ f) · wr f + sin (θ f) · wi f) · wi f the coefficient of channel f. It is the feed-forward block
  `PhaseFfn.ffn3` on the 4 · 2048 = 8192 rows of x.
-/
import proofs.«162884_j39960375722236_2_alg».proof.Proof.PhaseFfn
import proofs.«162884_j39960375722236_2_alg».proof.Proof.Words

noncomputable section

namespace Cert.Target

open Idealize.ShloMosaic Idealize.ShloMosaic.ValueIdx Cert.PhaseFfn Cert.Words

/-- The result array as one function of the eight argument arrays. -/
def G (x : FVec Ideal ⟨3, ![4, 2048, 1024]⟩ .f32) (w1 : FVec Ideal ⟨2, ![1024, 4096]⟩ .f32)
    (b1 θ wr wi : FVec Ideal ⟨1, ![4096]⟩ .f32) (w2 : FVec Ideal ⟨2, ![4096, 1024]⟩ .f32)
    (b2 : FVec Ideal ⟨1, ![1024]⟩ .f32) : FVec Ideal ⟨3, ![4, 2048, 1024]⟩ .f32 :=
  ffn3 (R := 8192) tenth zero (by decide) (by decide) (by decide) (by decide) x w1 b1 θ (coeff tenth θ wr wi) w2 b2

/-- Entry (p, q, j) of `G`: the plain formula. -/
theorem G_apply (x : FVec Ideal ⟨3, ![4, 2048, 1024]⟩ .f32) (w1 : FVec Ideal ⟨2, ![1024, 4096]⟩ .f32)
    (b1 θ wr wi : FVec Ideal ⟨1, ![4096]⟩ .f32) (w2 : FVec Ideal ⟨2, ![4096, 1024]⟩ .f32)
    (b2 : FVec Ideal ⟨1, ![1024]⟩ .f32) (p : Fin 4) (q : Fin 2048) (j : Fin 1024) :
    G x w1 b1 θ wr wi w2 b2 (ix3 p q j)
      = (∑ f : Fin 4096, max (hidden3 x w1 b1 p q f
            + coeff tenth θ wr wi (ix1 f) * Ideal.sin (θ (ix1 f) + hidden3 x w1 b1 p q f * tenth)) zero
          * w2 (ix2 f j)) + b2 (ix1 j) :=
  ffn3_apply _ _ _ _ _ _ _ _ _ _ _ _ _ _ _ _

end Cert.Target

end
-- ==== Proof.KernelArray.lean ====
/-
  The kernel's result array as one function of the argument arrays.

  The grid has 32 points; point t loads rows 256 t … 256 t + 255 of the 8192 rows of the merged input and the whole
  of the two weights and the four rows, and writes rows 256 t … 256 t + 255 of the [8192, 1024] output. Because entry
  (p, j) of the feed-forward block reads only row p of its input (`PhaseFfn.ffn_rows`), the block of rows that point
  t writes is that block of rows of the feed-forward block of the WHOLE merged input; the 32 blocks tile the output,
  so the output array is that whole block, and the last host operation splits its 8192 rows back into [4, 2048]:
  the result is `Target.G` of the arguments. The arrays the region finds are the host operations before it applied to
  the arguments: the input with its two leading axes merged, the two weights (their narrowing is the identity on
  the extended reals), the two bias vectors and the phase vector laid as rows, and the coefficient vector
  κ · (cos θ · wr + sin θ · wi) · wi laid as a row.
-/
import proofs.«162884_j39960375722236_2_alg».proof.Proof.Gen.KernelIdeal.Frame
import proofs.«162884_j39960375722236_2_alg».proof.Proof.KernelBlock
import proofs.«162884_j39960375722236_2_alg».proof.Proof.Target
import Idealize.ShloMosaic.Lib.Pipeline.Value
import Idealize.ShloMosaic.Lib.StableHlo.Run
import Idealize.ShloMosaic.Lib.Tactic

set_option maxRecDepth 16384

noncomputable section

namespace Cert.KernelIdeal.ArrayValue

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.PhaseFfn Cert.Words Cert.Target Cert.LibMergeRows

variable (m : (ℓ : Loc nD τ sig) → Buf (Elt Ideal) ℓ) (ρ : Dev nD → PrngReg)

/-! ## The arrays the region finds -/

/-- The input with its two leading axes merged. -/
theorem V_v0 (c : Dev nD) : (V m c main_v0 : S8192x1024.Idx → EReal)
    = shapeCast S8192x1024 (m ((c : Thread nD τ).loc main_arg0)) shapeCasts_S4x2048x1024_S8192x1024 := by
  show StableHlo.after hostOps0 (fun b => m (c, b)) (Proc.devRef .tc main_v0) = _
  after_results
  rfl

/-- The first weight: narrowing it is the identity. -/
theorem V_v1 (c : Dev nD) : (V m c main_v1 : S1024x4096.Idx → EReal) = (m ((c : Thread nD τ).loc main_arg1)) := by
  show StableHlo.after hostOps0 (fun b => m (c, b)) (Proc.devRef .tc main_v1) = _
  after_results
  rfl

/-- The second weight: narrowing it is the identity. -/
theorem V_v2 (c : Dev nD) : (V m c main_v2 : S4096x1024.Idx → EReal) = (m ((c : Thread nD τ).loc main_arg6)) := by
  show StableHlo.after hostOps0 (fun b => m (c, b)) (Proc.devRef .tc main_v2) = _
  after_results
  rfl

/-- The first bias laid as a row. -/
theorem V_v11 (c : Dev nD) : (V m c main_v11 : S1x4096.Idx → EReal)
    = shapeCast S1x4096 (m ((c : Thread nD τ).loc main_arg2)) shapeCasts_S4096_S1x4096 := by
  show StableHlo.after hostOps0 (fun b => m (c, b)) (Proc.devRef .tc main_v11) = _
  after_results
  rfl

/-- The phase vector laid as a row. -/
theorem V_v12 (c : Dev nD) : (V m c main_v12 : S1x4096.Idx → EReal)
    = shapeCast S1x4096 (m ((c : Thread nD τ).loc main_arg3)) shapeCasts_S4096_S1x4096 := by
  show StableHlo.after hostOps0 (fun b => m (c, b)) (Proc.devRef .tc main_v12) = _
  after_results
  rfl

/-- The host's coefficient vector, entry by entry. -/
theorem host_coeff (a3 a4 a5 : FVec Ideal S4096 .f32) :
    mulf (mulf (broadcastInDim S4096 ![] bcast_S_S4096 (constant (F := Ideal) S_ .f32 0x3DCCCCCD#32))
        (addf (mulf (Host.cos a3) a4) (mulf (Host.sin a3) a5))) a5 = coeff tenth a3 a4 a5 := by
  funext f
  show broadcastInDim S4096 ![] bcast_S_S4096 (constant (F := Ideal) S_ .f32 0x3DCCCCCD#32) f
      * (Ideal.cos (a3 f) * a4 f + Ideal.sin (a3 f) * a5 f) * a5 f = _
  rw [broadcastInDim_0_apply]
  rfl

/-- The coefficient vector laid as a row. -/
theorem V_v13 (c : Dev nD) : (V m c main_v13 : S1x4096.Idx → EReal)
    = shapeCast S1x4096 (coeff tenth (m ((c : Thread nD τ).loc main_arg3)) (m ((c : Thread nD τ).loc main_arg4)) (m ((c : Thread nD τ).loc main_arg5))) shapeCasts_S4096_S1x4096 := by
  show StableHlo.after hostOps0 (fun b => m (c, b)) (Proc.devRef .tc main_v13) = _
  after_results
  rw [← host_coeff]
  rfl

/-- The second bias laid as a row. -/
theorem V_v14 (c : Dev nD) : (V m c main_v14 : S1x1024.Idx → EReal)
    = shapeCast S1x1024 (m ((c : Thread nD τ).loc main_arg7)) shapeCasts_S1024_S1x1024 := by
  show StableHlo.after hostOps0 (fun b => m (c, b)) (Proc.devRef .tc main_v14) = _
  after_results
  rfl

/-! ## The output array -/

/-- The feed-forward block of the whole arrays the region finds: what the output array ends holding. -/
def whole (c : Dev nD) : S8192x1024.Idx → EReal :=
  ffn tenth zero (fun i => (V m c main_v0 : S8192x1024.Idx → EReal) i) (fun i => (V m c main_v1 : S1024x4096.Idx → EReal) i)
    (V m c main_v11 : S1x4096.Idx → EReal) (V m c main_v12 : S1x4096.Idx → EReal) (V m c main_v13 : S1x4096.Idx → EReal)
    (fun i => (V m c main_v2 : S4096x1024.Idx → EReal) i) (V m c main_v14 : S1x1024.Idx → EReal)

theorem hz : (![0, 0] : Fin 2 → Nat) = fun _ => 0 := funext fun a => by fin_cases a <;> rfl

/-- The printed index maps over the grid: the input's and the output's row block is the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Entry y of the block over a block of rows and entry Y of the block over all rows agree when row y 0 of the
    one is row Y 0 of the other, the columns are the same and the other operands are the same arrays. -/
theorem ffn_block {a a' k n d : ℕ} (κ z : Ideal .f32)
    (X : FVec Ideal ⟨2, ![a, k]⟩ .f32) (W1 : FVec Ideal ⟨2, ![k, n]⟩ .f32) (B1 Θ C : FVec Ideal ⟨2, ![1, n]⟩ .f32)
    (W2 : FVec Ideal ⟨2, ![n, d]⟩ .f32) (B2 : FVec Ideal ⟨2, ![1, d]⟩ .f32)
    (x : FVec Ideal ⟨2, ![a', k]⟩ .f32) (w1 : FVec Ideal ⟨2, ![k, n]⟩ .f32) (b1 θ c : FVec Ideal ⟨2, ![1, n]⟩ .f32)
    (w2 : FVec Ideal ⟨2, ![n, d]⟩ .f32) (b2 : FVec Ideal ⟨2, ![1, d]⟩ .f32)
    (y : (⟨2, ![a', d]⟩ : Shape).Idx) (Y : (⟨2, ![a, d]⟩ : Shape).Idx)
    (hx : ∀ e : Fin k, x (ix2 (y 0) e) = X (ix2 (Y 0) e)) (hj : y 1 = Y 1)
    (hw1 : w1 = W1) (hb1 : b1 = B1) (hθ : θ = Θ) (hc : c = C) (hw2 : w2 = W2) (hb2 : b2 = B2) :
    ffn κ z x w1 b1 θ c w2 b2 y = ffn κ z X W1 B1 Θ C W2 B2 Y := by
  subst hw1 hb1 hθ hc hw2 hb2
  rw [eq_ix2 y, eq_ix2 Y, hj]
  exact ffn_rows κ z X x w1 b1 θ c w2 b2 (y 0) (Y 0) (Y 1) hx

/-- What point t writes back is block t of `whole`. -/
theorem flushed_eq (c : Dev nD) (t : Fin cfg0.N) :
    (dats m 0 c).flushed 7 t = ((cfg0.win 7).blk t).view.read (Elt Ideal) (whole m c) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x4096) hz,
    View.ld_unit_zero (S := S1x4096) hz, View.ld_unit_zero (S := S4096x1024) hz, View.ld_unit_zero (S := S1x1024) hz]
  rw [Block.pay_eq]
  obtain ⟨e00, e01, e10, e11, e20, e21, e30, e31, e40, e41, e50, e51, e60, e61, e70, e71⟩ := idx_facts t
  funext y
  show ffn tenth zero (fun i => iblk m c 0 t i) (fun i => iblk m c 1 t i) (iblk m c 2 t) (iblk m c 3 t) (iblk m c 4 t)
      (fun i => iblk m c 5 t i) (iblk m c 6 t) y = whole m c (((cfg0.win 7).blk t).view.emb y)
  unfold whole
  refine ffn_block tenth zero _ _ _ _ _ _ _ _ _ _ _ _ _ _ y _ (fun e => ?_) ?_ (funext fun i => ?_) (funext fun i => ?_)
    (funext fun i => ?_) (funext fun i => ?_) (funext fun i => ?_) (funext fun i => ?_)
  · show V m c main_v0 (((cfg0.win 0).blk t).view.emb (ix2 (y 0) e)) = V m c main_v0 (ix2 ((((cfg0.win 7).blk t).view.emb y) 0) e)
    refine congrArg (V m c main_v0) (funext fun a => Fin.ext ?_)
    match a with
    | ⟨0, _⟩ => show win0_0.index t (0 : Fin 2) * 256 + 1 * (y 0).val = win0_7.index t (0 : Fin 2) * 256 + 1 * (y 0).val; omega
    | ⟨1, _⟩ => show win0_0.index t (1 : Fin 2) * 1024 + 1 * e.val = e.val; omega
  · apply Fin.ext
    show (y 1).val = win0_7.index t (1 : Fin 2) * 1024 + 1 * (y 1).val
    omega
  · show V m c main_v1 (((cfg0.win 1).blk t).view.emb i) = V m c main_v1 i
    refine congrArg (V m c main_v1) (funext fun a => Fin.ext ?_)
    match a with
    | ⟨0, _⟩ => show win0_1.index t (0 : Fin 2) * 1024 + 1 * (i 0).val = (i 0).val; omega
    | ⟨1, _⟩ => show win0_1.index t (1 : Fin 2) * 4096 + 1 * (i 1).val = (i 1).val; omega
  · show V m c main_v11 (((cfg0.win 2).blk t).view.emb i) = V m c main_v11 i
    refine congrArg (V m c main_v11) (funext fun a => Fin.ext ?_)
    match a with
    | ⟨0, _⟩ => show win0_2.index t (0 : Fin 2) * 1 + 1 * (i 0).val = (i 0).val; omega
    | ⟨1, _⟩ => show win0_2.index t (1 : Fin 2) * 4096 + 1 * (i 1).val = (i 1).val; omega
  · show V m c main_v12 (((cfg0.win 3).blk t).view.emb i) = V m c main_v12 i
    refine congrArg (V m c main_v12) (funext fun a => Fin.ext ?_)
    match a with
    | ⟨0, _⟩ => show win0_3.index t (0 : Fin 2) * 1 + 1 * (i 0).val = (i 0).val; omega
    | ⟨1, _⟩ => show win0_3.index t (1 : Fin 2) * 4096 + 1 * (i 1).val = (i 1).val; omega
  · show V m c main_v13 (((cfg0.win 4).blk t).view.emb i) = V m c main_v13 i
    refine congrArg (V m c main_v13) (funext fun a => Fin.ext ?_)
    match a with
    | ⟨0, _⟩ => show win0_4.index t (0 : Fin 2) * 1 + 1 * (i 0).val = (i 0).val; omega
    | ⟨1, _⟩ => show win0_4.index t (1 : Fin 2) * 4096 + 1 * (i 1).val = (i 1).val; omega
  · show V m c main_v2 (((cfg0.win 5).blk t).view.emb i) = V m c main_v2 i
    refine congrArg (V m c main_v2) (funext fun a => Fin.ext ?_)
    match a with
    | ⟨0, _⟩ => show win0_5.index t (0 : Fin 2) * 4096 + 1 * (i 0).val = (i 0).val; omega
    | ⟨1, _⟩ => show win0_5.index t (1 : Fin 2) * 1024 + 1 * (i 1).val = (i 1).val; omega
  · show V m c main_v14 (((cfg0.win 6).blk t).view.emb i) = V m c main_v14 i
    refine congrArg (V m c main_v14) (funext fun a => Fin.ext ?_)
    match a with
    | ⟨0, _⟩ => show win0_6.index t (0 : Fin 2) * 1 + 1 * (i 0).val = (i 0).val; omega
    | ⟨1, _⟩ => show win0_6.index t (1 : Fin 2) * 1024 + 1 * (i 1).val = (i 1).val; omega

/-- An index of the output array is in point t's block iff its row is among rows 256 t … 256 t + 255. -/
theorem mem_blk (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v15).slice (win0_7.rect t)).set ↔ _
  rw [View.set_slice_whole, Rect.mem_set_unit]
  exact Iff.rfl

/-- Every row of the output lies in the block of the point numbered by its quotient by 256. -/
theorem cover (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_7 _, ?_⟩
  rw [mem_blk]
  obtain ⟨-, -, -, -, -, -, -, -, -, -, -, -, -, -, e70, e71⟩ := idx_facts ⟨(i 0).val / 256, by rw [hN]; omega⟩
  intro a
  match a with
  | ⟨0, _⟩ =>
    show win0_7.index _ (0 : Fin 2) * 256 ≤ (i 0).val ∧ (i 0).val < win0_7.index _ (0 : Fin 2) * 256 + 256
    rw [e70]
    show (i 0).val / 256 * 256 ≤ (i 0).val ∧ (i 0).val < (i 0).val / 256 * 256 + 256
    omega
  | ⟨1, _⟩ =>
    show win0_7.index _ (1 : Fin 2) * 1024 ≤ (i 1).val ∧ (i 1).val < win0_7.index _ (1 : Fin 2) * 1024 + 1024
    rw [e71]
    omega

/-- The output array after the run. -/
theorem final (c : Dev nD) : (dats m 0 c).arrAt 7 cfg0.N = whole m c :=
  (dats m 0 c).arrAt_eq_of_cover 7 (whole m c) (fun t _ => flushed_eq m c t) (cover)

/-! ## The result -/

/-- The whole block is the block of the arguments: the merged input, the weights, the vectors laid as rows. -/
theorem whole_eq (c : Dev nD) : whole m c
    = ffn tenth zero (shapeCast S8192x1024 (m ((c : Thread nD τ).loc main_arg0)) shapeCasts_S4x2048x1024_S8192x1024) (m ((c : Thread nD τ).loc main_arg1))
        (shapeCast S1x4096 (m ((c : Thread nD τ).loc main_arg2)) shapeCasts_S4096_S1x4096) (shapeCast S1x4096 (m ((c : Thread nD τ).loc main_arg3)) shapeCasts_S4096_S1x4096)
        (shapeCast S1x4096 (coeff tenth (m ((c : Thread nD τ).loc main_arg3)) (m ((c : Thread nD τ).loc main_arg4)) (m ((c : Thread nD τ).loc main_arg5))) shapeCasts_S4096_S1x4096) (m ((c : Thread nD τ).loc main_arg6))
        (shapeCast S1x1024 (m ((c : Thread nD τ).loc main_arg7)) shapeCasts_S1024_S1x1024) := by
  unfold whole
  rw [V_v0, V_v1, V_v2, V_v11, V_v12, V_v13, V_v14]

/-- The result buffer after the host operation that follows the region: the output's rows split back, `G`. -/
theorem result_eq (c : Dev nD) :
    (Pipeline.afterTail₀ cfgs (dats m) 0 (V0 m) [hostOps1] c main_v16 : S4x2048x1024.Idx → EReal)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v16) = _
  after_results
  have e : (Pipeline.withArrays (cfgs 0).spec c (V0 m c) (fun w => (dats m 0 c).arrAt w (cfgs 0).N)
      (Proc.devRef .tc main_v15) : S8192x1024.Idx → EReal) = whole m c :=
    (Pipeline.withArrays_arr spec0 launch0.win.arr_inj c _ _ 7).trans (final m c)
  funext i
  obtain ⟨p, q, j, rfl⟩ : ∃ (p : Fin 4) (q : Fin 2048) (j : Fin 1024), i = ix3 p q j := ⟨i 0, i 1, i 2, eq_ix3 i⟩
  show shapeCast S4x2048x1024 (Pipeline.withArrays (cfgs 0).spec c (V0 m c) (fun w => (dats m 0 c).arrAt w (cfgs 0).N)
      (Proc.devRef .tc main_v15) : S8192x1024.Idx → EReal) shapeCasts_S8192x1024_S4x2048x1024 (ix3 p q j) = _
  rw [e, shapeCast_rc_abc_apply (hr := (by decide : 8192 = 4 * 2048)), whole_eq]
  rfl

/-- The kernel's run: the result at `G` of the arguments, the arguments unchanged. -/
theorem run : θ_run defs (onTc (τ := τ) (main (F := Ideal))) ⟨m, fun _ => 0, ρ⟩ fun r => ∀ c : Dev nD,
      r.2.mem ((c.tc : Thread nD τ).loc main_v16)
        = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v16 (Pipeline.mem_restRefs_of main_v16 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.ArrayValue

end
-- ==== Proof.ReferenceValue.lean ====
/-
  The reference computes `Target.G`: its two contractions over the last axis of a [4, 2048, ·] array are the sums over
  e and over f, its vectors broadcast along the two leading axes read entry f (or j), and its activation
  h + (q · (wi · sin (θ + h · κ))) · κ, with q = cos θ · wr + sin θ · wi, is h + c · sin (θ + h · κ) for the
  coefficient c = κ · q · wi: the same four factors multiplied in another grouping (`PhaseFfn.regroup`).
-/
import proofs.«162884_j39960375722236_2_alg».proof.Proof.Gen.ReferenceIdeal.Read
import proofs.«162884_j39960375722236_2_alg».proof.Proof.Target

noncomputable section

namespace Cert.ReferenceIdeal.RefValue

open Idealize.ShloMosaic Idealize.ShloMosaic.ValueIdx Cert.ReferenceIdeal Cert.ReferenceIdeal.Gen Cert.ReferenceIdeal.Read
open Cert.PhaseFfn Cert.Words Cert.Target

/-! The operand positions of the two contractions, and of a vector laid along the two leading axes. -/

theorem lidx0 (p : Fin 4) (q : Fin 2048) (f : Fin 4096) (e : Fin 1024) : lidx_main_v0 (ix3 p q f) e = ix3 p q e :=
  funext fun a => Fin.ext (by match a with | ⟨0, _⟩ => rfl | ⟨1, _⟩ => rfl | ⟨2, _⟩ => rfl)
theorem ridx0 (p : Fin 4) (q : Fin 2048) (f : Fin 4096) (e : Fin 1024) : ridx_main_v0 (ix3 p q f) e = ix2 e f :=
  funext fun a => Fin.ext (by match a with | ⟨0, _⟩ => rfl | ⟨1, _⟩ => rfl)
theorem lidx25 (p : Fin 4) (q : Fin 2048) (j : Fin 1024) (f : Fin 4096) : lidx_main_v25 (ix3 p q j) f = ix3 p q f :=
  funext fun a => Fin.ext (by match a with | ⟨0, _⟩ => rfl | ⟨1, _⟩ => rfl | ⟨2, _⟩ => rfl)
theorem ridx25 (p : Fin 4) (q : Fin 2048) (j : Fin 1024) (f : Fin 4096) : ridx_main_v25 (ix3 p q j) f = ix2 f j :=
  funext fun a => Fin.ext (by match a with | ⟨0, _⟩ => rfl | ⟨1, _⟩ => rfl)
theorem vec2 (p : Fin 4) (q : Fin 2048) (f : Fin 4096) : idx_main_v1 (idx_main_v2 (ix3 p q f)) = ix1 f :=
  funext fun a => Fin.ext (by match a with | ⟨0, _⟩ => rfl)
theorem vec7 (p : Fin 4) (q : Fin 2048) (f : Fin 4096) : idx_main_v6 (idx_main_v7 (ix3 p q f)) = ix1 f :=
  funext fun a => Fin.ext (by match a with | ⟨0, _⟩ => rfl)
theorem vec11 (p : Fin 4) (q : Fin 2048) (f : Fin 4096) : idx_main_v10 (idx_main_v11 (ix3 p q f)) = ix1 f :=
  funext fun a => Fin.ext (by match a with | ⟨0, _⟩ => rfl)
theorem vec19 (p : Fin 4) (q : Fin 2048) (f : Fin 4096) : idx_main_v18 (idx_main_v19 (ix3 p q f)) = ix1 f :=
  funext fun a => Fin.ext (by match a with | ⟨0, _⟩ => rfl)
theorem vec27 (p : Fin 4) (q : Fin 2048) (j : Fin 1024) : idx_main_v26 (idx_main_v27 (ix3 p q j)) = ix1 j :=
  funext fun a => Fin.ext (by match a with | ⟨0, _⟩ => rfl)

/-- The reference's hidden entry (p, q, f). -/
theorem hidden_eq (x0 : FVec Ideal S4x2048x1024 .f32) (x1 : FVec Ideal S1024x4096 .f32) (x2 : FVec Ideal S4096 .f32)
    (p : Fin 4) (q : Fin 2048) (f : Fin 4096) :
    val_main_v3 (F := Ideal) x0 x1 x2 (ix3 p q f) = hidden3 x0 x1 x2 p q f := by
  rw [val_main_v3_apply, val_main_v0_apply, val_main_v2_apply, val_main_v1_apply, vec2]
  simp only [lidx0, ridx0]
  rfl

/-- The reference's rectified activation (p, q, f): the phase activation with the coefficient vector. -/
theorem act_eq (x0 : FVec Ideal S4x2048x1024 .f32) (x1 : FVec Ideal S1024x4096 .f32) (x2 x3 x4 x5 : FVec Ideal S4096 .f32)
    (p : Fin 4) (q : Fin 2048) (f : Fin 4096) :
    val_main_v24 (F := Ideal) x0 x1 x2 x3 x4 x5 (ix3 p q f)
      = max (hidden3 x0 x1 x2 p q f
          + coeff tenth x3 x4 x5 (ix1 f) * Ideal.sin (x3 (ix1 f) + hidden3 x0 x1 x2 p q f * tenth)) zero := by
  rw [val_main_v24_apply, val_main_v23_apply, val_main_v22_apply, val_main_v20_apply, val_main_v12_apply,
    val_main_v9_apply, val_main_v8_apply, val_main_v5_apply, hidden_eq, val_main_v7_apply, val_main_v6_apply, vec7,
    val_main_v4_apply, val_main_cst_apply, val_main_v11_apply, val_main_v10_apply, vec11, val_main_v19_apply,
    val_main_v18_apply, vec19, val_main_v17_apply, val_main_v14_apply, val_main_v16_apply, val_main_v13_apply,
    val_main_v15_apply, val_main_v21_apply, val_main_cst_0_apply, val_main_call0_v0_apply, val_main_call0_cst_apply]
  simp only [Ideal.maximumf_def, Ideal.addf_def, Ideal.mulf_def, Ideal.hostUnary_sin_def, Ideal.hostUnary_cos_def,
    Ideal.ofBits_def]
  rw [regroup]
  rfl

/-- The reference's result is `G` of its arguments. -/
theorem result_eq (x0 : FVec Ideal S4x2048x1024 .f32) (x1 : FVec Ideal S1024x4096 .f32) (x2 x3 x4 x5 : FVec Ideal S4096 .f32)
    (x6 : FVec Ideal S4096x1024 .f32) (x7 : FVec Ideal S1024 .f32) :
    val_main_v28 (F := Ideal) x0 x1 x2 x3 x4 x5 x6 x7 = G x0 x1 x2 x3 x4 x5 x6 x7 := by
  funext i
  obtain ⟨p, q, j, rfl⟩ : ∃ (p : Fin 4) (q : Fin 2048) (j : Fin 1024), i = ix3 p q j := ⟨i 0, i 1, i 2, eq_ix3 i⟩
  rw [G_apply, val_main_v28_apply, val_main_v25_apply, val_main_v27_apply, val_main_v26_apply, vec27]
  simp only [lidx25, ridx25, act_eq]
  rfl

end Cert.ReferenceIdeal.RefValue

end
-- ==== Proof.lean ====
/-
  A fused feed-forward block against its plain array formulation, equal on the extended reals.

  Both programs take x [4, 2048, 1024], a weight w1 [1024, 4096] with bias b1, a phase vector θ and two weight
  vectors wr, wi of length 4096, and a weight w2 [4096, 1024] with bias b2, and return, at (p, q, j),
    (the sum over f of max (h f + t f) 0 · w2 (f, j)) + b2 j,    h f = (the sum over e of x (p, q, e) · w1 (e, f)) + b1 f.
  The reference forms the phase term as t f = (s · (wi f · sin (θ f + h f · κ))) · κ with s = cos (θ f) · wr f + sin (θ f) · wi f
  and κ the single-precision word nearest one tenth. The kernel merges the two leading axes of x into 8192 rows, has
  the host precompute the coefficient c f = (κ · s) · wi f once per channel, and forms t f = c f · sin (θ f + h f · κ) in
  blocks of 256 rows. The two phase terms are the same four factors multiplied in two groupings, and multiplication
  of extended reals is commutative and associative, so the two results are equal with no appeal to finiteness of
  the inputs; the products' operands being narrowed to half precision in the kernel changes nothing on the extended
  reals, and the sine is one function on both sides.

  The parts: `Target.G` is the common function; `KernelIdeal.ArrayValue.run` reads the kernel's run as `G` of the
  arguments (each grid point writes its block of rows of the block of ALL rows, because a row of the result reads only
  that row of the input; the 32 blocks tile the output; the host then splits the rows back); `ReferenceIdeal.RefValue.result_eq`
  reads the reference's term as `G`. The three frames are the programs' generated runs, and the idealized kernel is the
  kernel's own text read on the extended reals (no rewrite to justify).
-/
import proofs.«162884_j39960375722236_2_alg».proof.Defs
import proofs.«162884_j39960375722236_2_alg».proof.Proof.Gen.Kernel
import proofs.«162884_j39960375722236_2_alg».proof.Proof.Gen.Kernel.Frame
import proofs.«162884_j39960375722236_2_alg».proof.Proof.Gen.KernelIdeal
import proofs.«162884_j39960375722236_2_alg».proof.Proof.Gen.KernelIdeal.Frame
import proofs.«162884_j39960375722236_2_alg».proof.Proof.Gen.ReferenceIdeal
import proofs.«162884_j39960375722236_2_alg».proof.Proof.Gen.Pre_finite_inputs
import proofs.«162884_j39960375722236_2_alg».proof.Proof.Gen.ReferenceIdeal.Run
import proofs.«162884_j39960375722236_2_alg».proof.Proof.Gen.ReferenceIdeal.Read
import proofs.«162884_j39960375722236_2_alg».proof.Proof.KernelArray
import proofs.«162884_j39960375722236_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- From memories that agree on the arguments both programs end with their result at `G` of those arguments. -/
theorem algebraic : Cert.algebraic_KernelIdeal_ReferenceIdeal := by
  intro m ρ m' ρ' _ hagree
  refine ⟨fun c => Cert.Target.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v28_eq, Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
